-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) (main_arg1 : FVec F S1x2048x1024 .f32) (main_arg2 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S1x2048x1024 .f32 := Host.absf main_arg2
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_c_3 : IVec S_ 1 := constantI S_ 1 1#1
  let main_v12 : IVec S_ 1 := (fun x v => Host.reduce IntOp.andi x v reducesTo_S1x2048x1024_S_d0_1_2 h_S_) main_v11 main_c_3
  let main_v13 : IVec S_ 1 := andi main_v8 main_v12
  main_v13
-- ==== Kernel.lean ====
abbrev S1x2048x1024 : Shape := ⟨3, ![1, 2048, 1024]⟩
abbrev S1x2048x128 : Shape := ⟨3, ![1, 2048, 128]⟩
abbrev S1x2048x64 : Shape := ⟨3, ![1, 2048, 64]⟩
abbrev S2048x64 : Shape := ⟨2, ![2048, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x128_S1x2048x64_0_0_0 : ∀ a, (![0, 0, 0] : Fin 3 → Nat) a + S1x2048x64.size a ≤ S1x2048x128.size a
  h_S1x2048x64 : 0 < S1x2048x64.numel
  shapeCasts_S1x2048x64_S2048x64 : S1x2048x64.ShapeCasts S2048x64
  bitsLt_bf16_f32 : FTy.bits .bf16 < FTy.bits .f32
  slices_S2048x64_o0_0_S256x64 : S2048x64.Slices ![0, 0] S256x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S2048x64_o256_0_S256x64 : S2048x64.Slices ![256, 0] S256x64
  slices_S2048x64_o512_0_S256x64 : S2048x64.Slices ![512, 0] S256x64
  slices_S2048x64_o768_0_S256x64 : S2048x64.Slices ![768, 0] S256x64
  slices_S2048x64_o1024_0_S256x64 : S2048x64.Slices ![1024, 0] S256x64
  slices_S2048x64_o1280_0_S256x64 : S2048x64.Slices ![1280, 0] S256x64
  slices_S2048x64_o1536_0_S256x64 : S2048x64.Slices ![1536, 0] S256x64
  slices_S2048x64_o1792_0_S256x64 : S2048x64.Slices ![1792, 0] S256x64
  concatenates_S256x64_S256x64_S256x64_S256x64_S256x64_S256x64_S256x64_S256x64_S2048x64_d0 : Shape.Concatenates [S256x64, S256x64, S256x64, S256x64, S256x64, S256x64, S256x64, S256x64] S2048x64 0
  inb_S1x2048x128_S1x2048x64_0_0_64 : ∀ a, (![0, 0, 64] : Fin 3 → Nat) a + S1x2048x64.size a ≤ S1x2048x128.size a
  concatenates_S2048x64_S2048x64_S2048x128_d1 : Shape.Concatenates [S2048x64, S2048x64] S2048x128 1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S1x2048x1024.size a
  hwx0_0 : ∀ i : grid0.Coords, EltTy.bits .f32 = 32 ∨ (Rect.block (s := S1x2048x1024) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S1x2048x1024.size a
  hwx0_1 : ∀ i : grid0.Coords, EltTy.bits .f32 = 32 ∨ (Rect.block (s := S1x2048x1024) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S1x2048x1024.size a
  hwx0_2 : ∀ i : grid0.Coords, EltTy.bits .f32 = 32 ∨ (Rect.block (s := S1x2048x1024) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S1x2048x1024.size a
  hwx0_3 : ∀ i : grid0.Coords, EltTy.bits .f32 = 32 ∨ (Rect.block (s := S1x2048x1024) S1x2048x128.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x2048x1024 : Shape := ⟨3, ![1, 2048, 1024]⟩
abbrev S1x2048x16x64 : Shape := ⟨4, ![1, 2048, 16, 64]⟩
abbrev S1x16x2048x64 : Shape := ⟨4, ![1, 16, 2048, 64]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x16x64, .f32⟩
  | .hbm, ⟨4, _⟩ => ⟨S1x16x2048x64, .f32⟩
  | .hbm, ⟨5, _⟩ => ⟨S1x2048x16x64, .f32⟩
  | .hbm, ⟨6, _⟩ => ⟨S1x16x2048x64, .f32⟩
  | .hbm, ⟨7, _⟩ => ⟨S1x2048x16x64, .f32⟩
  | .hbm, ⟨8, _⟩ => ⟨S1x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S_, .f32⟩
  | .hbm, ⟨19, _⟩ => ⟨S1x16x2048, .f32⟩
  | .hbm, ⟨20, _⟩ => ⟨S1x16x2048, .f32⟩
  | .hbm, ⟨21, _⟩ => ⟨S1x16x2048x1, .f32⟩
  | .hbm, ⟨22, _⟩ => ⟨S1x16x2048x2048, .f32⟩
  | .hbm, ⟨23, _⟩ => ⟨S1x16x2048x2048, .f32⟩
  | .hbm, ⟨24, _⟩ => ⟨S1x16x2048x2048, .f32⟩
  | .hbm, ⟨25, _⟩ => ⟨S_, .f32⟩
  | .hbm, ⟨26, _⟩ => ⟨S1x16x2048, .f32⟩
  | .hbm, ⟨27, _⟩ => ⟨S1x16x2048x1, .f32⟩
  | .hbm, ⟨28, _⟩ => ⟨S1x16x2048x2048, .f32⟩
  | .hbm, ⟨29, _⟩ => ⟨S1x16x2048x2048, .f32⟩
  | .hbm, ⟨30, _⟩ => ⟨S1x16x2048x64, .f32⟩
  | .hbm, ⟨31, _⟩ => ⟨S1x2048x16x64, .f32⟩
  | .hbm, ⟨32, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  transposes_S1x16x2048x64_S1x2048x16x64_0_2_1_3 : S1x16x2048x64.Transposes [0, 2, 1, 3] S1x2048x16x64
  shapeCasts_S1x2048x16x64_S1x2048x1024 : S1x2048x16x64.ShapeCasts S1x2048x1024
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibSoftmax.lean ====
/-
  One row of scaled dot-product attention over finite index types: `T` the keys, `E` the head's coordinates.
  Two arrangements of the same number, on the extended reals:

  * `rowAttn q K v` = (Σ_t p_t · v_t) / (Σ_t p_t), with p_t = exp (s_t − max_t' s_t') and s_t = Σ_e q_e · K_{t,e}:
    the weighted sum is taken first and divided by the normaliser once (the query `q` already carrying the scale);
  * `refAttn c q K v` = Σ_t (p_t / (0 + Σ_t' p_t')) · v_t, with s_t = (Σ_e q_e · K_{t,e}) · c and the maximum taken
    once more against −∞: each weight is normalised first, and the scale multiplies the finished score.

  For REAL inputs the two agree. Both steps need finiteness: moving the scale across the sum over `e` is
  distributivity, and moving the division across the sum over `t` is distributivity again after noting that the
  normaliser is a positive real (every p_t is the exponential of a real, and there is at least one key).
-/
import Idealize.ShloMosaic.PureOps.Ideal

noncomputable section

namespace Cert.Attn

open Idealize.ShloMosaic

variable {T E : Type} [Fintype T] [Fintype E]

/-- The kernel's arrangement: scores, their maximum from −∞, the exponentials, then ONE division of the weighted sum
    by the sum of the weights. -/
def rowAttn (q : E → EReal) (K : T → E → EReal) (v : T → EReal) : EReal :=
  Ideal.div
    (∑ t, Ideal.exp ((∑ e, q e * K t e) - Finset.univ.fold max ⊥ (fun t' => ∑ e, q e * K t' e)) * v t)
    (∑ t, Ideal.exp ((∑ e, q e * K t e) - Finset.univ.fold max ⊥ (fun t' => ∑ e, q e * K t' e)))

/-- The reference's arrangement: the scale `c` multiplies each finished score, the maximum is taken once more against
    −∞, each weight is divided by `0 +` the sum of the weights, and the normalised weights are summed against `v`. -/
def refAttn (c : EReal) (q : E → EReal) (K : T → E → EReal) (v : T → EReal) : EReal :=
  ∑ t, Ideal.div
      (Ideal.exp ((∑ e, q e * K t e) * c - max ⊥ (Finset.univ.fold max ⊥ (fun t' => (∑ e, q e * K t' e) * c))))
      (0 + ∑ t'', Ideal.exp ((∑ e, q e * K t'' e) * c - max ⊥ (Finset.univ.fold max ⊥ (fun t' => (∑ e, q e * K t' e) * c))))
    * v t

/-- A finite sum of reals, read in the extended reals, is the sum there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from −∞, of finitely many reals over a nonempty index set is one of them. -/
theorem fold_max_coe [Nonempty T] (S : T → ℝ) :
    ∃ t₀ : T, Finset.univ.fold max ⊥ (fun t => (S t : EReal)) = (S t₀ : EReal) := by
  obtain ⟨t₀, -, h⟩ := Finset.exists_mem_eq_sup (Finset.univ : Finset T) Finset.univ_nonempty (fun t => (S t : EReal))
  exact ⟨t₀, h⟩

/-- **The two arrangements agree on real inputs**, the kernel's query carrying the scale the reference applies to
    the score. -/
theorem refAttn_eq_rowAttn [Nonempty T] (c : ℝ) (q : E → ℝ) (K : T → E → ℝ) (v : T → ℝ) :
    refAttn (c : EReal) (fun e => (q e : EReal)) (fun t e => (K t e : EReal)) (fun t => (v t : EReal))
      = rowAttn (fun e => (q e : EReal) * (c : EReal)) (fun t e => (K t e : EReal)) (fun t => (v t : EReal)) := by
  -- the scores are reals, the same on both sides
  have hsR : ∀ t, (∑ e, (q e : EReal) * (K t e : EReal)) * (c : EReal) = ((∑ e, q e * c * K t e : ℝ) : EReal) := fun t => by
    simp only [← EReal.coe_mul, ← coe_sum]
    exact congrArg _ (by rw [Finset.sum_mul]; exact Finset.sum_congr rfl fun e _ => by ring)
  have hsK : ∀ t, (∑ e, (q e : EReal) * (c : EReal) * (K t e : EReal)) = ((∑ e, q e * c * K t e : ℝ) : EReal) := fun t => by
    simp only [← EReal.coe_mul, ← coe_sum]
  unfold refAttn rowAttn
  simp only [hsR, hsK]
  -- their maximum is one of them
  obtain ⟨t₀, hm⟩ := fold_max_coe (fun t => ∑ e, q e * c * K t e)
  rw [hm, max_eq_right bot_le]
  -- so each weight is the exponential of a real, and the normaliser a positive real
  simp only [← EReal.coe_sub, Ideal.exp_coe]
  simp only [← coe_sum, ← EReal.coe_mul, zero_add]
  have hL : (∑ t : T, Real.exp ((∑ e, q e * c * K t e) - ∑ e, q e * c * K t₀ e)) ≠ 0 :=
    ne_of_gt (Finset.sum_pos (fun t _ => Real.exp_pos _) Finset.univ_nonempty)
  simp only [Ideal.div_coe hL, ← EReal.coe_mul, ← coe_sum]
  -- and the division moves across the sum over the keys
  refine congrArg _ ?_
  rw [Finset.sum_mul]
  exact Finset.sum_congr rfl fun t _ => by ring

end Cert.Attn

end
-- ==== Proof.Consts.lean ====
/-
  The float constants the two programs spell, as the extended reals their patterns denote: the kernel's scale
  0.125 = 1/8, the reference's 64 and 1 (its scale is 1/√64, again 1/8, since 64 = 8²), the reductions' start
  values −∞ (for a maximum) and 0 (for a sum).
-/
import Idealize.ShloMosaic.PureOps.Ideal

noncomputable section

namespace Cert.Attn.Consts

open Idealize.ShloMosaic

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 1.0 denotes the real 1. -/
theorem ofBits_one : Ideal.ofBits .f32 0x3F800000#32 = ((1 : ℝ) : EReal) := by
  simp [Ideal.ofBits, Ideal.ieee, -EReal.coe_mul]; norm_num

/-- The pattern of −∞ denotes the bottom element. -/
theorem ofBits_neg_inf : Ideal.ofBits .f32 0xFF800000#32 = ⊥ := by
  simp [Ideal.ofBits, Ideal.ieee]

/-- The pattern of +0.0 denotes 0. -/
theorem ofBits_zero : Ideal.ofBits .f32 0x00000000#32 = 0 := by
  simp [Ideal.ofBits, Ideal.ieee]

/-- √64 = 8, as 64 = 8 · 8. -/
theorem sqrt_64 : Real.sqrt 64 = 8 := by
  rw [show (64 : ℝ) = 8 * 8 by norm_num]
  exact Real.sqrt_mul_self (by norm_num)

/-- The reference's scale 1 / √64 is the real 1/8: the kernel's 0.125. -/
theorem one_div_sqrt_64 :
    Ideal.div (Ideal.ofBits .f32 0x3F800000#32) (Ideal.sqrt (Ideal.ofBits .f32 0x42800000#32)) = ((1 / 8 : ℝ) : EReal) := by
  rw [ofBits_one, ofBits_64, Ideal.sqrt_coe, if_neg (by norm_num), sqrt_64,
    Ideal.div_coe (by norm_num : (8 : ℝ) ≠ 0), ← EReal.coe_mul, one_mul]

end Cert.Attn.Consts

end
-- ==== Proof.Chunk.lean ====
/-
  One chunk of the kernel's body: 256 query rows of one head against all 2048 keys of that head. Its printed operations,
  in four stages — the scores (a slice of the scaled queries times the keys, contracted over the head's 64
  coordinates), the weights (each score less its row's maximum, exponentiated), the normaliser (each row's sum of
  weights, kept as a column) and the weighted values divided by the normaliser — and what each stage holds at a
  coordinate. Together: entry (r, d) of a chunk is the row attention (`Cert.Attn.rowAttn`) of query row `o + r`
  against the keys, summed against column `d` of the values.
-/
import proofs.«121451_g44976897524301_cont_8to1_c_832_3_alg».proof.Proof.Gen.KernelIdeal
import proofs.«121451_g44976897524301_cont_8to1_c_832_3_alg».proof.Proof.LibKeepdims
import proofs.«121451_g44976897524301_cont_8to1_c_832_3_alg».proof.Proof.LibSoftmax
import proofs.«121451_g44976897524301_cont_8to1_c_832_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Chunk

open Cert.KernelIdeal Cert.KernelIdeal.Facts₀ Idealize.ShloMosaic Idealize.ShloMosaic.ValueIdx Cert.Attn

variable {F : FTy → Type} [FloatOps F]

/-! ## The four stages, as the body prints them -/

/-- Scores of the chunk starting at query row `o`: rows `o … o+255` of the queries times the keys, over the 64
    coordinates of the head, into a zero accumulator. -/
def scores (o : Nat) (ho : S2048x64.Slices ![o, 0] S256x64) (qb kb : FVec F S2048x64 .bf16) : FVec F S256x2048 .f32 :=
  matmul dot_S256x64_S2048x64_S256x2048_1_1_0_0_n_n none (extractStridedSlice S256x64 ![o, 0] qb ho) kb
    (constant S256x2048 .f32 0x00000000#32)

/-- Weights: each score less the maximum of its row (taken from −∞, kept as a column, laid back along the row),
    exponentiated. -/
def weights (s : FVec F S256x2048 .f32) : FVec F S256x2048 .f32 :=
  exp (subf s (broadcastTo S256x2048
    (shapeCast S256x1 (multiReduction .maximumf [1] S256 s 0xFF800000#32 reduces_S256x2048_S256 (.inl rfl) rfl) shapeCasts_S256_S256x1)
    broadcasts_S256x1_S256x2048))

/-- Normaliser: each row's sum of weights (from 0), kept as a column. -/
def normaliser (p : FVec F S256x2048 .f32) : FVec F S256x1 .f32 :=
  shapeCast S256x1 (multiReduction .add [1] S256 p 0x00000000#32 reduces_S256x2048_S256 (.inl rfl) rfl) shapeCasts_S256_S256x1

/-- The weights times the values, over the 2048 keys, into a zero accumulator; divided by the normaliser laid along
    the 64 columns. -/
def weighted (pb : FVec F S256x2048 .bf16) (l : FVec F S256x1 .f32) (vb : FVec F S2048x64 .bf16) : FVec F S256x64 .f32 :=
  divf (matmul dot_S256x2048_S2048x64_S256x64_1_0_0_1_n_n none pb vb (constant S256x64 .f32 0x00000000#32))
    (broadcastTo S256x64 l broadcasts_S256x1_S256x64)

/-- One chunk: the four stages composed (the weights narrowed for the second product, which at the ideal values
    changes nothing). -/
def chunk (o : Nat) (ho : S2048x64.Slices ![o, 0] S256x64) (qb kb vb : FVec F S2048x64 .bf16) : FVec F S256x64 .f32 :=
  weighted (truncf .bf16 (weights (scores o ho qb kb)) bitsLt_bf16_f32) (normaliser (weights (scores o ho qb kb))) vb

/-! ## Each stage at a coordinate -/

local notation "D₁" => dot_S256x64_S2048x64_S256x2048_1_1_0_0_n_n
local notation "D₂" => dot_S256x2048_S2048x64_S256x64_1_0_0_1_n_n

/-- The first product's operand indices at output (r, t) and contraction coordinate `e`: the query's is (r, e), the
    key's is (t, e) — the keys enter transposed. -/
theorem lhs₁_0 (j : S256x2048.Idx) (q : (D₁).contr.Idx) : ((D₁).lhsIdx j q 0).val = (j 0).val := by
  unfold DotDims.lhsIdx
  rw [dif_neg (show ¬(0 : Fin S256x64.rank) ∈ (D₁).lhsBatch by decide),
    dif_pos (show (0 : Fin S256x64.rank) ∈ (D₁).lhsNonContracting by decide)]
  rfl
theorem lhs₁_1 (j : S256x2048.Idx) (q : (D₁).contr.Idx) : ((D₁).lhsIdx j q 1).val = (q ⟨0, by decide⟩).val :=
  (D₁).lhsIdx_val_of_single rfl j q
theorem rhs₁_0 (j : S256x2048.Idx) (q : (D₁).contr.Idx) : ((D₁).rhsIdx j q 0).val = (j 1).val := by
  unfold DotDims.rhsIdx
  rw [dif_neg (show ¬(0 : Fin S2048x64.rank) ∈ (D₁).rhsBatch by decide),
    dif_pos (show (0 : Fin S2048x64.rank) ∈ (D₁).rhsNonContracting by decide)]
  rfl
theorem rhs₁_1 (j : S256x2048.Idx) (q : (D₁).contr.Idx) : ((D₁).rhsIdx j q 1).val = (q ⟨0, by decide⟩).val :=
  (D₁).rhsIdx_val_of_single rfl j q

/-- The second product's operand indices at output (r, d) and contraction coordinate `t`: the weight's is (r, t), the
    value's is (t, d). -/
theorem lhs₂_0 (j : S256x64.Idx) (q : (D₂).contr.Idx) : ((D₂).lhsIdx j q 0).val = (j 0).val := by
  unfold DotDims.lhsIdx
  rw [dif_neg (show ¬(0 : Fin S256x2048.rank) ∈ (D₂).lhsBatch by decide),
    dif_pos (show (0 : Fin S256x2048.rank) ∈ (D₂).lhsNonContracting by decide)]
  rfl
theorem lhs₂_1 (j : S256x64.Idx) (q : (D₂).contr.Idx) : ((D₂).lhsIdx j q 1).val = (q ⟨0, by decide⟩).val :=
  (D₂).lhsIdx_val_of_single rfl j q
theorem rhs₂_0 (j : S256x64.Idx) (q : (D₂).contr.Idx) : ((D₂).rhsIdx j q 0).val = (q ⟨0, by decide⟩).val :=
  (D₂).rhsIdx_val_of_single rfl j q
theorem rhs₂_1 (j : S256x64.Idx) (q : (D₂).contr.Idx) : ((D₂).rhsIdx j q 1).val = (j 1).val := by
  unfold DotDims.rhsIdx
  rw [dif_neg (show ¬(1 : Fin S2048x64.rank) ∈ (D₂).rhsBatch by decide),
    dif_pos (show (1 : Fin S2048x64.rank) ∈ (D₂).rhsNonContracting by decide)]
  rfl

/-- Score (r, t) is the sum over the head's coordinates `e` of query (o + r, e) times key (t, e). -/
theorem scores_apply (o : Nat) (ho : S2048x64.Slices ![o, 0] S256x64) (qb kb : FVec Ideal S2048x64 .bf16)
    (r : Fin 256) (t : Fin 2048) (sr : Fin 2048) (hsr : sr.val = o + r.val) :
    scores o ho qb kb (ix2 r t) = ∑ e : Fin 64, qb (ix2 sr e) * kb (ix2 t e) := by
  unfold scores
  simp only [matmul]
  rw [Ideal.matmul_constant_zero_apply, ← Equiv.sum_comp (contrEquiv1 (D₁) 64 rfl rfl).symm]
  refine Finset.sum_congr rfl fun e _ => ?_
  have hk := contrEquiv1_symm_val (D₁) 64 rfl rfl e
  have el : (D₁).lhsIdx (ix2 r t) ((contrEquiv1 (D₁) 64 rfl rfl).symm e) = ix2 r e := funext fun a => Fin.ext (by
    match a with
    | ⟨0, _⟩ => exact lhs₁_0 _ _
    | ⟨1, _⟩ => exact (lhs₁_1 _ _).trans hk)
  have er : (D₁).rhsIdx (ix2 r t) ((contrEquiv1 (D₁) 64 rfl rfl).symm e) = ix2 t e := funext fun a => Fin.ext (by
    match a with
    | ⟨0, _⟩ => exact rhs₁_0 _ _
    | ⟨1, _⟩ => exact (rhs₁_1 _ _).trans hk)
  rw [el, er, slice2_axis0_apply o qb ho r e sr hsr]

/-- Along row `r` the reduced axis's coordinate `k` is inserted as the column. -/
theorem lift_row (r : Fin 256) (k : Fin 2048) :
    (reduces_S256x2048_S256).lift (ix1 r) k = ix2 r k :=
  funext fun b => Fin.ext (by match b with | ⟨0, _⟩ => rfl | ⟨1, _⟩ => rfl)

/-- Weight (r, t) is the exponential of score (r, t) less the maximum, from −∞, of row `r`'s scores. -/
theorem weights_apply (s : FVec Ideal S256x2048 .f32) (r : Fin 256) (t : Fin 2048) :
    weights s (ix2 r t) = Ideal.exp (s (ix2 r t) - Finset.univ.fold max ⊥ (fun t' : Fin 2048 => s (ix2 r t'))) := by
  unfold weights
  show Ideal.exp (s (ix2 r t) - broadcastTo S256x2048 _ _ (ix2 r t)) = _
  rw [Keepdims.broadcastTo_a1_ab_apply, Keepdims.shapeCast_a_a1_apply]
  refine congrArg (fun m => Ideal.exp (s (ix2 r t) - m)) ?_
  refine (Ideal.multiReduction_maximumf_single s 0xFF800000#32 reduces_S256x2048_S256 (.inl rfl) rfl (ix1 r)).trans ?_
  show Finset.univ.fold max (Ideal.ofBits .f32 0xFF800000#32) _ = _
  rw [Consts.ofBits_neg_inf]
  exact congrArg (Finset.univ.fold max ⊥) (funext fun k => congrArg s (lift_row r k))

/-- Normaliser (r, ·) is the sum of row `r`'s weights. -/
theorem normaliser_apply (p : FVec Ideal S256x2048 .f32) (r : Fin 256) :
    normaliser p (ix2 r (0 : Fin 1)) = ∑ t : Fin 2048, p (ix2 r t) := by
  unfold normaliser
  rw [Keepdims.shapeCast_a_a1_apply]
  refine (Ideal.multiReduction_add_single p 0x00000000#32 reduces_S256x2048_S256 (.inl rfl) rfl (ix1 r)).trans ?_
  exact Finset.sum_congr rfl fun k _ => congrArg p (lift_row r k)

/-- Entry (r, d) of the last stage: the sum over the keys `t` of weight (r, t) times value (t, d), divided by
    normaliser (r, ·). -/
theorem weighted_apply (pb : FVec Ideal S256x2048 .bf16) (l : FVec Ideal S256x1 .f32) (vb : FVec Ideal S2048x64 .bf16)
    (r : Fin 256) (d : Fin 64) :
    weighted pb l vb (ix2 r d) = Ideal.div (∑ t : Fin 2048, pb (ix2 r t) * vb (ix2 t d)) (l (ix2 r (0 : Fin 1))) := by
  unfold weighted
  show Ideal.div (matmul (D₂) none pb vb (constant S256x64 .f32 0x00000000#32) (ix2 r d)) (broadcastTo S256x64 l _ (ix2 r d)) = _
  simp only [matmul]
  rw [Keepdims.broadcastTo_a1_ab_apply, Ideal.matmul_constant_zero_apply, ← Equiv.sum_comp (contrEquiv1 (D₂) 2048 rfl rfl).symm]
  refine congrArg (fun x => Ideal.div x _) (Finset.sum_congr rfl fun t _ => ?_)
  have hk := contrEquiv1_symm_val (D₂) 2048 rfl rfl t
  have el : (D₂).lhsIdx (ix2 r d) ((contrEquiv1 (D₂) 2048 rfl rfl).symm t) = ix2 r t := funext fun a => Fin.ext (by
    match a with
    | ⟨0, _⟩ => exact lhs₂_0 _ _
    | ⟨1, _⟩ => exact (lhs₂_1 _ _).trans hk)
  have er : (D₂).rhsIdx (ix2 r d) ((contrEquiv1 (D₂) 2048 rfl rfl).symm t) = ix2 t d := funext fun a => Fin.ext (by
    match a with
    | ⟨0, _⟩ => exact (rhs₂_0 _ _).trans hk
    | ⟨1, _⟩ => exact rhs₂_1 _ _)
  rw [el, er]

/-- **A chunk at a coordinate**: entry (r, d) of the chunk starting at row `o` is the row attention of query row
    `o + r` against the keys, summed against column `d` of the values. -/
theorem chunk_apply (o : Nat) (ho : S2048x64.Slices ![o, 0] S256x64) (qb kb vb : FVec Ideal S2048x64 .bf16)
    (r : Fin 256) (d : Fin 64) (sr : Fin 2048) (hsr : sr.val = o + r.val) :
    chunk o ho qb kb vb (ix2 r d)
      = rowAttn (fun e : Fin 64 => qb (ix2 sr e)) (fun (t : Fin 2048) (e : Fin 64) => kb (ix2 t e)) (fun t : Fin 2048 => vb (ix2 t d)) := by
  unfold chunk
  rw [weighted_apply, normaliser_apply]
  simp only [truncf_apply, weights_apply, scores_apply o ho qb kb r _ sr hsr]
  rfl

end Cert.Attn.Chunk

end
-- ==== Proof.Spec.lean ====
/-
  The result of multi-head attention over [1, 2048, 1024] arrays, 16 heads of 64 coordinates, as ONE function of the
  three argument arrays, index by index. Column `c` of the model axis belongs to head `c / 64`, whose columns are
  `64 · (c / 64) + e` for `e < 64`. Entry (0, s, c) of the result is the row attention of query row `s` of that head
  (each coordinate times the scale 0.125) against all 2048 key rows of that head, summed against column `c` of the values.
-/
import proofs.«121451_g44976897524301_cont_8to1_c_832_3_alg».proof.Proof.LibSoftmax
import Idealize.ShloMosaic.Lib.ValueIdx

noncomputable section

namespace Cert.Attn

open Idealize.ShloMosaic Idealize.ShloMosaic.ValueIdx

/-- The [1, 2048, 1024] arrays. -/
abbrev Arr : Type := (⟨3, ![1, 2048, 1024]⟩ : Shape).Idx → EReal

/-- Column `64 n + e`: coordinate `e` of head `n`. -/
abbrev hcol (n : Fin 16) (e : Fin 64) : Fin 1024 := ⟨64 * n.val + e.val, by have := n.isLt; have := e.isLt; omega⟩

/-- The head a column belongs to, and its coordinate inside the head. -/
abbrev headOf (c : Fin 1024) : Fin 16 := ⟨c.val / 64, by have := c.isLt; omega⟩
abbrev coordOf (c : Fin 1024) : Fin 64 := ⟨c.val % 64, by have := c.isLt; omega⟩

/-- A column is the column of its head at its coordinate. -/
theorem hcol_headOf_coordOf (c : Fin 1024) : hcol (headOf c) (coordOf c) = c :=
  Fin.ext (by show 64 * (c.val / 64) + c.val % 64 = c.val; omega)

/-- The kernel's scale, as it spells it: the pattern of 0.125. -/
abbrev scaleK : EReal := Ideal.ofBits .f32 0x3E000000#32

/-- **The specification**: attention, index by index, in the kernel's arrangement. -/
def G (q k v : Arr) : Arr := fun i =>
  rowAttn (fun e : Fin 64 => q (ix3 (0 : Fin 1) (i 1) (hcol (headOf (i 2)) e)) * scaleK)
    (fun (t : Fin 2048) (e : Fin 64) => k (ix3 (0 : Fin 1) t (hcol (headOf (i 2)) e)))
    (fun t : Fin 2048 => v (ix3 (0 : Fin 1) t (i 2)))

end Cert.Attn

end
-- ==== Proof.Payload.lean ====
/-
  What the kernel's body leaves in its output block, as a function of the three input blocks. The body computes, for
  each of the two heads in a [1, 2048, 128] block (columns 0–63 and 64–127), eight chunks of 256 query rows, stacks the
  chunks of a head into a [2048, 64] matrix, sets the two heads side by side and adds a leading unit axis. Read at
  (0, s, c): with `h = c / 64` the head and `d = c % 64` the coordinate, it is the row attention of query row `s` of
  head `h` (each coordinate times 0.125) against the head's keys, summed against column `c` of the values.
-/
import proofs.«121451_g44976897524301_cont_8to1_c_832_3_alg».proof.Proof.Gen.KernelIdeal.Frame
import proofs.«121451_g44976897524301_cont_8to1_c_832_3_alg».proof.Proof.Chunk
import proofs.«121451_g44976897524301_cont_8to1_c_832_3_alg».proof.Proof.Spec
import Idealize.ShloMosaic.Lib.ValueIdx
import Idealize.ShloMosaic.Lib.ValueLayout
import Idealize.ShloMosaic.Lib.Pipeline.Value

noncomputable section

namespace Cert.Attn.Payload

open Cert.KernelIdeal Cert.KernelIdeal.Gen Idealize.ShloMosaic Idealize.ShloMosaic.ValueIdx
open Cert.Attn Cert.Attn.Chunk

variable {F : FTy → Type} [FloatOps F]

/-! ## The body's result, folded into heads and chunks -/

/-- The eight chunks of one head, in order of their first query row. -/
def chunks (qb kb vb : FVec F S2048x64 .bf16) : List ((s : Shape) × (s.Idx → F .f32)) := [
      ⟨S256x64, chunk 0 slices_S2048x64_o0_0_S256x64 qb kb vb⟩,
      ⟨S256x64, chunk 256 slices_S2048x64_o256_0_S256x64 qb kb vb⟩,
      ⟨S256x64, chunk 512 slices_S2048x64_o512_0_S256x64 qb kb vb⟩,
      ⟨S256x64, chunk 768 slices_S2048x64_o768_0_S256x64 qb kb vb⟩,
      ⟨S256x64, chunk 1024 slices_S2048x64_o1024_0_S256x64 qb kb vb⟩,
      ⟨S256x64, chunk 1280 slices_S2048x64_o1280_0_S256x64 qb kb vb⟩,
      ⟨S256x64, chunk 1536 slices_S2048x64_o1536_0_S256x64 qb kb vb⟩,
      ⟨S256x64, chunk 1792 slices_S2048x64_o1792_0_S256x64 qb kb vb⟩]

/-- One head: its eight chunks of 256 query rows, stacked. -/
def headOut (qb kb vb : FVec F S2048x64 .bf16) : FVec F S2048x64 .f32 :=
  concatenate S2048x64 0 (chunks qb kb vb) concatenates_S256x64_S256x64_S256x64_S256x64_S256x64_S256x64_S256x64_S256x64_S2048x64_d0

/-- The block: the two heads side by side, under a leading unit axis. Each head reads its 64 columns of the three
    input blocks; the queries are scaled as they are read. -/
def blockOut (x0 x1 x2 : Vec F S1x2048x128 .f32) : Vec F S1x2048x128 .f32 :=
  shapeCast S1x2048x128 (concatenate S2048x128 1 [
      ⟨S2048x64, headOut (k0_pay2 (View.ld x0 r0_0)) (k0_pay3 (View.ld x1 r0_0)) (k0_pay4 (View.ld x2 r0_0))⟩,
      ⟨S2048x64, headOut (k0_pay15 (View.ld x0 r0_1)) (k0_pay16 (View.ld x1 r0_1)) (k0_pay17 (View.ld x2 r0_1))⟩]
    concatenates_S2048x64_S2048x64_S2048x128_d1) shapeCasts_S2048x128_S1x2048x128

theorem zero_offsets : (![0, 0, 0] : Fin S1x2048x128.rank → Nat) = fun _ => 0 :=
  funext fun a => by match a with | ⟨0, _⟩ => rfl | ⟨1, _⟩ => rfl | ⟨2, _⟩ => rfl

/-- The body's one covering store leaves exactly this: the printed operations are the same, only cut differently. -/
theorem out_eq (x0 x1 x2 : Vec F S1x2048x128 .f32) : out0_3 x0 x1 x2 = blockOut x0 x1 x2 := by
  unfold out0_3
  rw [View.canon_unit_zero zero_offsets]
  rfl

/-! ## Reading it at a coordinate -/

/-- Row `s` of a head's stack lies in chunk `s / 256`, at row `s % 256` of it: entry (s, d) of the stack is the row
    attention of query row `s`. -/
theorem headOut_apply (qb kb vb : FVec Ideal S2048x64 .bf16) (s : Fin 2048) (d : Fin 64) :
    headOut qb kb vb (ix2 s d)
      = rowAttn (fun e : Fin 64 => qb (ix2 s e)) (fun (t : Fin 2048) (e : Fin 64) => kb (ix2 t e)) (fun t : Fin 2048 => vb (ix2 t d)) := by
  have hs := s.isLt
  obtain ⟨k, hk, r, hr⟩ : ∃ k, k < 8 ∧ ∃ r : Fin 256, s.val = 256 * k + r.val :=
    ⟨s.val / 256, by omega, ⟨s.val % 256, by omega⟩, by show s.val = 256 * (s.val / 256) + s.val % 256; omega⟩
  unfold headOut
  interval_cases k
  · exact (concatenate_apply_piece (t := S2048x64) 0 (chunks qb kb vb) concatenates_S256x64_S256x64_S256x64_S256x64_S256x64_S256x64_S256x64_S256x64_S2048x64_d0 (ix2 s d) 0
      (by show (0 : Nat) < 8; omega) S256x64 (chunk 0 slices_S2048x64_o0_0_S256x64 qb kb vb) rfl rfl 0 rfl
      (ix2 r d) (fun b hb => by match b with | ⟨0, _⟩ => exact absurd rfl hb | ⟨1, _⟩ => rfl) (by show 0 + r.val = s.val; omega)).trans
      (chunk_apply 0 _ qb kb vb r d s (by omega))
  · exact (concatenate_apply_piece (t := S2048x64) 0 (chunks qb kb vb) concatenates_S256x64_S256x64_S256x64_S256x64_S256x64_S256x64_S256x64_S256x64_S2048x64_d0 (ix2 s d) 1
      (by show (1 : Nat) < 8; omega) S256x64 (chunk 256 slices_S2048x64_o256_0_S256x64 qb kb vb) rfl rfl 256 rfl
      (ix2 r d) (fun b hb => by match b with | ⟨0, _⟩ => exact absurd rfl hb | ⟨1, _⟩ => rfl) (by show 256 + r.val = s.val; omega)).trans
      (chunk_apply 256 _ qb kb vb r d s (by omega))
  · exact (concatenate_apply_piece (t := S2048x64) 0 (chunks qb kb vb) concatenates_S256x64_S256x64_S256x64_S256x64_S256x64_S256x64_S256x64_S256x64_S2048x64_d0 (ix2 s d) 2
      (by show (2 : Nat) < 8; omega) S256x64 (chunk 512 slices_S2048x64_o512_0_S256x64 qb kb vb) rfl rfl 512 rfl
      (ix2 r d) (fun b hb => by match b with | ⟨0, _⟩ => exact absurd rfl hb | ⟨1, _⟩ => rfl) (by show 512 + r.val = s.val; omega)).trans
      (chunk_apply 512 _ qb kb vb r d s (by omega))
  · exact (concatenate_apply_piece (t := S2048x64) 0 (chunks qb kb vb) concatenates_S256x64_S256x64_S256x64_S256x64_S256x64_S256x64_S256x64_S256x64_S2048x64_d0 (ix2 s d) 3
      (by show (3 : Nat) < 8; omega) S256x64 (chunk 768 slices_S2048x64_o768_0_S256x64 qb kb vb) rfl rfl 768 rfl
      (ix2 r d) (fun b hb => by match b with | ⟨0, _⟩ => exact absurd rfl hb | ⟨1, _⟩ => rfl) (by show 768 + r.val = s.val; omega)).trans
      (chunk_apply 768 _ qb kb vb r d s (by omega))
  · exact (concatenate_apply_piece (t := S2048x64) 0 (chunks qb kb vb) concatenates_S256x64_S256x64_S256x64_S256x64_S256x64_S256x64_S256x64_S256x64_S2048x64_d0 (ix2 s d) 4
      (by show (4 : Nat) < 8; omega) S256x64 (chunk 1024 slices_S2048x64_o1024_0_S256x64 qb kb vb) rfl rfl 1024 rfl
      (ix2 r d) (fun b hb => by match b with | ⟨0, _⟩ => exact absurd rfl hb | ⟨1, _⟩ => rfl) (by show 1024 + r.val = s.val; omega)).trans
      (chunk_apply 1024 _ qb kb vb r d s (by omega))
  · exact (concatenate_apply_piece (t := S2048x64) 0 (chunks qb kb vb) concatenates_S256x64_S256x64_S256x64_S256x64_S256x64_S256x64_S256x64_S256x64_S2048x64_d0 (ix2 s d) 5
      (by show (5 : Nat) < 8; omega) S256x64 (chunk 1280 slices_S2048x64_o1280_0_S256x64 qb kb vb) rfl rfl 1280 rfl
      (ix2 r d) (fun b hb => by match b with | ⟨0, _⟩ => exact absurd rfl hb | ⟨1, _⟩ => rfl) (by show 1280 + r.val = s.val; omega)).trans
      (chunk_apply 1280 _ qb kb vb r d s (by omega))
  · exact (concatenate_apply_piece (t := S2048x64) 0 (chunks qb kb vb) concatenates_S256x64_S256x64_S256x64_S256x64_S256x64_S256x64_S256x64_S256x64_S2048x64_d0 (ix2 s d) 6
      (by show (6 : Nat) < 8; omega) S256x64 (chunk 1536 slices_S2048x64_o1536_0_S256x64 qb kb vb) rfl rfl 1536 rfl
      (ix2 r d) (fun b hb => by match b with | ⟨0, _⟩ => exact absurd rfl hb | ⟨1, _⟩ => rfl) (by show 1536 + r.val = s.val; omega)).trans
      (chunk_apply 1536 _ qb kb vb r d s (by omega))
  · exact (concatenate_apply_piece (t := S2048x64) 0 (chunks qb kb vb) concatenates_S256x64_S256x64_S256x64_S256x64_S256x64_S256x64_S256x64_S256x64_S2048x64_d0 (ix2 s d) 7
      (by show (7 : Nat) < 8; omega) S256x64 (chunk 1792 slices_S2048x64_o1792_0_S256x64 qb kb vb) rfl rfl 1792 rfl
      (ix2 r d) (fun b hb => by match b with | ⟨0, _⟩ => exact absurd rfl hb | ⟨1, _⟩ => rfl) (by show 1792 + r.val = s.val; omega)).trans
      (chunk_apply 1792 _ qb kb vb r d s (by omega))

/-- Coordinate `e` of the head that block column `c` belongs to: block column `64 (c / 64) + e`. -/
abbrev bcol (c : Fin 128) (e : Fin 64) : Fin 128 := ⟨64 * (c.val / 64) + e.val, by have := c.isLt; have := e.isLt; omega⟩

/-- A load through the left 64 columns of a block reads column `e`; through the right 64, column `64 + e`. -/
theorem ld_left (x : Vec Ideal S1x2048x128 .f32) (u : Fin 1) (s : Fin 2048) (e : Fin 64) :
    View.ld x r0_0 (ix3 u s e) = x (ix3 (0 : Fin 1) s ⟨e.val, by have := e.isLt; omega⟩) := by
  show x _ = x _
  refine congrArg x (funext fun a => Fin.ext ?_)
  have := u.isLt
  match a with
  | ⟨0, _⟩ => show 0 + 1 * u.val = 0; omega
  | ⟨1, _⟩ => show 0 + 1 * s.val = s.val; omega
  | ⟨2, _⟩ => show 0 + 1 * e.val = e.val; omega

theorem ld_right (x : Vec Ideal S1x2048x128 .f32) (u : Fin 1) (s : Fin 2048) (e : Fin 64) :
    View.ld x r0_1 (ix3 u s e) = x (ix3 (0 : Fin 1) s ⟨64 + e.val, by have := e.isLt; omega⟩) := by
  show x _ = x _
  refine congrArg x (funext fun a => Fin.ext ?_)
  have := u.isLt
  match a with
  | ⟨0, _⟩ => show 0 + 1 * u.val = 0; omega
  | ⟨1, _⟩ => show 0 + 1 * s.val = s.val; omega
  | ⟨2, _⟩ => show 64 + 1 * e.val = 64 + e.val; omega

/-- The queries as a chunk reads them: the loaded [1, 2048, 64] piece without its unit axis, each entry times 0.125
    (the narrowing to bf16 changes nothing at the ideal values). Keys and values: the same without the scale. -/
theorem scaled_apply (v : Vec Ideal S1x2048x64 .f32) (s : Fin 2048) (e : Fin 64) :
    k0_pay2 v (ix2 s e) = v (ix3 (0 : Fin 1) s e) * scaleK := by
  unfold k0_pay2
  show shapeCast S2048x64 v _ (ix2 s e) * _ = _
  rw [shapeCast_1ab_ab_apply]
  rfl

theorem plain3_apply (v : Vec Ideal S1x2048x64 .f32) (s : Fin 2048) (e : Fin 64) :
    k0_pay3 v (ix2 s e) = v (ix3 (0 : Fin 1) s e) := by
  unfold k0_pay3
  show shapeCast S2048x64 v _ (ix2 s e) = _
  rw [shapeCast_1ab_ab_apply]

theorem plain4_apply (v : Vec Ideal S1x2048x64 .f32) (s : Fin 2048) (e : Fin 64) :
    k0_pay4 v (ix2 s e) = v (ix3 (0 : Fin 1) s e) := by
  unfold k0_pay4
  show shapeCast S2048x64 v _ (ix2 s e) = _
  rw [shapeCast_1ab_ab_apply]

/-- The second head's three readers are the first head's, printed again. -/
theorem second_scaled : @k0_pay15 Ideal _ = k0_pay2 := rfl
theorem second_plain3 : @k0_pay16 Ideal _ = k0_pay3 := rfl
theorem second_plain4 : @k0_pay17 Ideal _ = k0_pay4 := rfl

/-- Two columns of a block with the same number are the same column. -/
theorem col_congr (x : Vec Ideal S1x2048x128 .f32) (s : Fin 2048) {a b : Fin 128} (h : a.val = b.val) :
    x (ix3 (0 : Fin 1) s a) = x (ix3 (0 : Fin 1) s b) := by rw [Fin.ext h]

/-- **The block at a coordinate**: entry (·, s, c) is the row attention of query row `s` of the head column `c` belongs
    to (its coordinates scaled), against that head's keys, summed against column `c` of the values. -/
theorem blockOut_apply (x0 x1 x2 : Vec Ideal S1x2048x128 .f32) (u : Fin 1) (s : Fin 2048) (c : Fin 128) :
    blockOut x0 x1 x2 (ix3 u s c)
      = rowAttn (fun e : Fin 64 => x0 (ix3 (0 : Fin 1) s (bcol c e)) * scaleK)
          (fun (t : Fin 2048) (e : Fin 64) => x1 (ix3 (0 : Fin 1) t (bcol c e)))
          (fun t : Fin 2048 => x2 (ix3 (0 : Fin 1) t c)) := by
  have hcl := c.isLt
  unfold blockOut
  rw [shapeCast_ab_1ab_apply]
  by_cases hc : c.val < 64
  · rw [concatenate_pair_apply_left (t := S2048x128) 1 _ _ concatenates_S2048x64_S2048x64_S2048x128_d1 (ix2 s c) rfl
      (ix2 s (⟨c.val, hc⟩ : Fin 64)) (fun b => by match b with | ⟨0, _⟩ => rfl | ⟨1, _⟩ => rfl), headOut_apply]
    simp only [scaled_apply, plain3_apply, plain4_apply]
    refine congr (congr (congrArg rowAttn (funext fun e => ?_)) (funext fun t => funext fun e => ?_)) (funext fun t => ?_)
    · exact congrArg (· * scaleK) ((ld_left x0 0 s e).trans (col_congr x0 s (by show e.val = 64 * (c.val / 64) + e.val; omega)))
    · exact (ld_left x1 0 t e).trans (col_congr x1 t (by show e.val = 64 * (c.val / 64) + e.val; omega))
    · exact (ld_left x2 0 t ⟨c.val, hc⟩).trans (col_congr x2 t rfl)
  · rw [concatenate_pair_apply_right (t := S2048x128) 1 _ _ concatenates_S2048x64_S2048x64_S2048x128_d1 (ix2 s c) rfl rfl
      (ix2 s (⟨c.val - 64, by omega⟩ : Fin 64)) (fun b hb => by match b with | ⟨0, _⟩ => rfl | ⟨1, _⟩ => exact absurd rfl hb)
      (by show c.val - 64 + 64 = c.val; omega), headOut_apply]
    simp only [second_scaled, second_plain3, second_plain4, scaled_apply, plain3_apply, plain4_apply]
    refine congr (congr (congrArg rowAttn (funext fun e => ?_)) (funext fun t => funext fun e => ?_)) (funext fun t => ?_)
    · exact congrArg (· * scaleK) ((ld_right x0 0 s e).trans (col_congr x0 s (by show 64 + e.val = 64 * (c.val / 64) + e.val; omega)))
    · exact (ld_right x1 0 t e).trans (col_congr x1 t (by show 64 + e.val = 64 * (c.val / 64) + e.val; omega))
    · exact (ld_right x2 0 t ⟨c.val - 64, by omega⟩).trans (col_congr x2 t (by show 64 + (c.val - 64) = c.val; omega))

end Cert.Attn.Payload

end
-- ==== Proof.KernelValue.lean ====
/-
  From blocks to the array. The kernel's grid has 8 points; point `t` stages block (0, 0, t) of each array — all
  2048 rows, columns 128 t … 128 t + 127 — and writes back what its body leaves. With the block's entries known
  (`Cert.Attn.Payload.blockOut_apply`), what point `t` writes back is block `t` of the specification `Cert.Attn.G` of
  the three argument arrays: a head's 64 columns lie inside one block (128 t + 64 h + e = 64 (2 t + h) + e), so the
  row attention a block entry computes from the blocks is the one `G` computes from the arrays. The 8 blocks tile the
  output, so after the run the output array is `G` of the arguments.
-/
import proofs.«121451_g44976897524301_cont_8to1_c_832_3_alg».proof.Proof.Gen.KernelIdeal.Value
import proofs.«121451_g44976897524301_cont_8to1_c_832_3_alg».proof.Proof.Payload
import proofs.«121451_g44976897524301_cont_8to1_c_832_3_alg».proof.Proof.Spec
import Idealize.ShloMosaic.Lib.Pipeline.Value
import Idealize.ShloMosaic.Lib.ValueIdx

set_option maxRecDepth 16384

noncomputable section

namespace Cert.Attn.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.Attn Cert.Attn.Payload

variable (m : (ℓ : Loc nD τ sig) → Buf (Elt Ideal) ℓ) (ρ : Dev nD → PrngReg)

/-- Two columns of an array with the same number are the same column. -/
theorem arr_congr (A : Arr) (s : Fin 2048) {a b : Fin 1024} (h : a.val = b.val) :
    A (ix3 (0 : Fin 1) s a) = A (ix3 (0 : Fin 1) s b) := by rw [Fin.ext h]

/-- A block's entry is the specification's: if `x0, x1, x2` are block `g` of the arrays `A0, A1, A2` (entry (0, s, c)
    of a block is entry (0, s, 128 g + c) of its array), then entry (·, s, c) of the body's result is entry
    (0, s, 128 g + c) of `G A0 A1 A2`. -/
theorem block_eq (A0 A1 A2 : Arr) (x0 x1 x2 : Vec Ideal S1x2048x128 .f32) (g : Nat) (hg : g < 8)
    (h0 : ∀ (s : Fin 2048) (c : Fin 128), x0 (ix3 (0 : Fin 1) s c) = A0 (ix3 (0 : Fin 1) s ⟨128 * g + c.val, by have := c.isLt; omega⟩))
    (h1 : ∀ (s : Fin 2048) (c : Fin 128), x1 (ix3 (0 : Fin 1) s c) = A1 (ix3 (0 : Fin 1) s ⟨128 * g + c.val, by have := c.isLt; omega⟩))
    (h2 : ∀ (s : Fin 2048) (c : Fin 128), x2 (ix3 (0 : Fin 1) s c) = A2 (ix3 (0 : Fin 1) s ⟨128 * g + c.val, by have := c.isLt; omega⟩))
    (u : Fin 1) (s : Fin 2048) (c : Fin 128) :
    blockOut x0 x1 x2 (ix3 u s c) = G A0 A1 A2 (ix3 (0 : Fin 1) s ⟨128 * g + c.val, by have := c.isLt; omega⟩) := by
  have hc := c.isLt
  rw [blockOut_apply]
  show _ = rowAttn (fun e : Fin 64 => A0 (ix3 (0 : Fin 1) s (hcol (headOf ⟨128 * g + c.val, by omega⟩) e)) * scaleK)
      (fun (t : Fin 2048) (e : Fin 64) => A1 (ix3 (0 : Fin 1) t (hcol (headOf ⟨128 * g + c.val, by omega⟩) e)))
      (fun t : Fin 2048 => A2 (ix3 (0 : Fin 1) t ⟨128 * g + c.val, by omega⟩))
  simp only [h0, h1, h2]
  refine congr (congr (congrArg rowAttn (funext fun e => ?_)) (funext fun t => funext fun e => ?_)) (funext fun t => ?_)
  · have he := e.isLt
    exact congrArg (· * scaleK) (arr_congr A0 s (by
      show 128 * g + (64 * (c.val / 64) + e.val) = 64 * ((128 * g + c.val) / 64) + e.val; omega))
  · have he := e.isLt
    exact arr_congr A1 t (by show 128 * g + (64 * (c.val / 64) + e.val) = 64 * ((128 * g + c.val) / 64) + e.val; omega)
  · rfl

/-- The printed index maps, decided over the 8 grid points: every window's block index is (0, 0, t's coordinate),
    the same for the three inputs and the output, and below 8. -/
theorem idx_facts : ∀ t : Fin cfg0.N,
    win0_0.index t (0 : Fin 3) = 0 ∧ win0_0.index t (1 : Fin 3) = 0 ∧ win0_0.index t (2 : Fin 3) = win0_3.index t (2 : Fin 3)
    ∧ win0_1.index t (0 : Fin 3) = 0 ∧ win0_1.index t (1 : Fin 3) = 0 ∧ win0_1.index t (2 : Fin 3) = win0_3.index t (2 : Fin 3)
    ∧ win0_2.index t (0 : Fin 3) = 0 ∧ win0_2.index t (1 : Fin 3) = 0 ∧ win0_2.index t (2 : Fin 3) = win0_3.index t (2 : Fin 3)
    ∧ win0_3.index t (0 : Fin 3) = 0 ∧ win0_3.index t (1 : Fin 3) = 0 ∧ win0_3.index t (2 : Fin 3) < 8 :=
  (by decide +kernel : ∀ t : Fin grid0.N, _)

/-- Every block column of the output is some point's. -/
theorem idx_onto : ∀ q : Fin 8, ∃ t : Fin cfg0.N, win0_3.index t = ![0, 0, q.val] :=
  (by decide +kernel : ∀ q : Fin 8, ∃ t : Fin grid0.N, win0_3.index t = ![0, 0, q.val])

/-- WHAT POINT `t` WRITES BACK is block `t` of `G` of the argument arrays as the region finds them. -/
theorem flushed_eq (c : Dev nD) (t : Fin cfg0.N) :
    (dats m 0 c).flushed 3 t = ((cfg0.win 3).blk t).view.read (Elt Ideal)
      (G (V m c main_arg0) (V m c main_arg1) (V m c main_arg2)) := by
  rw [Cert.KernelIdeal.Value.flushed3, out_eq]
  obtain ⟨a00, a01, a02, a10, a11, a12, a20, a21, a22, a30, a31, a3lt⟩ := idx_facts t
  funext j
  have hj0 : (j 0).val < 1 := (j 0).isLt
  have hj1 : (j 1).val < 2048 := (j 1).isLt
  have hj2 : (j 2).val < 128 := (j 2).isLt
  have ej : j = ix3 (⟨(j 0).val, hj0⟩ : Fin 1) (⟨(j 1).val, hj1⟩ : Fin 2048) (⟨(j 2).val, hj2⟩ : Fin 128) :=
    funext fun a => by match a with | ⟨0, _⟩ => rfl | ⟨1, _⟩ => rfl | ⟨2, _⟩ => rfl
  show blockOut (iblk m c 0 t) (iblk m c 1 t) (iblk m c 2 t) j
    = G (V m c main_arg0) (V m c main_arg1) (V m c main_arg2) (((cfg0.win 3).blk t).view.emb j)
  refine (congrArg (blockOut (iblk m c 0 t) (iblk m c 1 t) (iblk m c 2 t)) ej).trans ?_
  refine (block_eq (V m c main_arg0) (V m c main_arg1) (V m c main_arg2) (iblk m c 0 t) (iblk m c 1 t) (iblk m c 2 t)
    (win0_3.index t (2 : Fin 3)) a3lt (fun s cc => ?_) (fun s cc => ?_) (fun s cc => ?_) _ _ _).trans ?_
  · have hcc := cc.isLt
    show V m c main_arg0 (((cfg0.win 0).blk t).view.emb (ix3 (0 : Fin 1) s cc)) = V m c main_arg0 _
    refine congrArg (V m c main_arg0) (funext fun a => Fin.ext ?_)
    match a with
    | ⟨0, _⟩ => show win0_0.index t (0 : Fin 3) * 1 + 1 * ((0 : Fin 1) : Nat) = ((0 : Fin 1) : Nat); omega
    | ⟨1, _⟩ => show win0_0.index t (1 : Fin 3) * 2048 + 1 * s.val = s.val; omega
    | ⟨2, _⟩ => show win0_0.index t (2 : Fin 3) * 128 + 1 * cc.val = 128 * win0_3.index t (2 : Fin 3) + cc.val; omega
  · have hcc := cc.isLt
    show V m c main_arg1 (((cfg0.win 1).blk t).view.emb (ix3 (0 : Fin 1) s cc)) = V m c main_arg1 _
    refine congrArg (V m c main_arg1) (funext fun a => Fin.ext ?_)
    match a with
    | ⟨0, _⟩ => show win0_1.index t (0 : Fin 3) * 1 + 1 * ((0 : Fin 1) : Nat) = ((0 : Fin 1) : Nat); omega
    | ⟨1, _⟩ => show win0_1.index t (1 : Fin 3) * 2048 + 1 * s.val = s.val; omega
    | ⟨2, _⟩ => show win0_1.index t (2 : Fin 3) * 128 + 1 * cc.val = 128 * win0_3.index t (2 : Fin 3) + cc.val; omega
  · have hcc := cc.isLt
    show V m c main_arg2 (((cfg0.win 2).blk t).view.emb (ix3 (0 : Fin 1) s cc)) = V m c main_arg2 _
    refine congrArg (V m c main_arg2) (funext fun a => Fin.ext ?_)
    match a with
    | ⟨0, _⟩ => show win0_2.index t (0 : Fin 3) * 1 + 1 * ((0 : Fin 1) : Nat) = ((0 : Fin 1) : Nat); omega
    | ⟨1, _⟩ => show win0_2.index t (1 : Fin 3) * 2048 + 1 * s.val = s.val; omega
    | ⟨2, _⟩ => show win0_2.index t (2 : Fin 3) * 128 + 1 * cc.val = 128 * win0_3.index t (2 : Fin 3) + cc.val; omega
  · refine congrArg (G (V m c main_arg0) (V m c main_arg1) (V m c main_arg2)) (funext fun a => Fin.ext ?_)
    match a with
    | ⟨0, _⟩ => show ((0 : Fin 1) : Nat) = win0_3.index t (0 : Fin 3) * 1 + 1 * (j 0).val; omega
    | ⟨1, _⟩ => show (j 1).val = win0_3.index t (1 : Fin 3) * 2048 + 1 * (j 1).val; omega
    | ⟨2, _⟩ => show 128 * win0_3.index t (2 : Fin 3) + (j 2).val = win0_3.index t (2 : Fin 3) * 128 + 1 * (j 2).val; omega

/-- An index of the array is in point `t`'s block iff each coordinate is in the block's range on its axis. -/
theorem mem_blk (t : Fin cfg0.N) (i : S1x2048x1024.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v0).slice (win0_3.rect t)).set ↔ _
  rw [View.set_slice_whole, Rect.mem_set_unit]
  exact Iff.rfl

/-- The blocks tile the output: column `c` lies in the block of the point whose coordinate is `c / 128`. -/
theorem cover (i : S1x2048x1024.Idx) :
    ∃ t : Fin cfg0.N, (cfg0.win 3).flush t = true ∧ i ∈ ((cfg0.win 3).blk t).view.set := by
  have hi0 : (i 0).val < 1 := (i 0).isLt
  have hi1 : (i 1).val < 2048 := (i 1).isLt
  have hi2 : (i 2).val < 1024 := (i 2).isLt
  obtain ⟨t, ht⟩ := idx_onto ⟨(i 2).val / 128, by omega⟩
  have q0 : win0_3.index t (0 : Fin 3) = 0 := congrFun ht 0
  have q1 : win0_3.index t (1 : Fin 3) = 0 := congrFun ht 1
  have q2 : win0_3.index t (2 : Fin 3) = (i 2).val / 128 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- THE ARRAY after the run: `G` of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the output array ends at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Attn.KernelValue

end
-- ==== Proof.RefValue.lean ====
/-
  The reference's result read at an index. The reference splits the model axis into 16 heads of 64 (a reshape and a
  transpose), scores each head's queries against its keys, multiplies by 1/√64, takes a softmax over the keys (the row
  maximum from −∞ and once more against −∞, the exponentials, their sum from 0, the quotient) and sums the normalised
  weights against the head's values, then undoes the split. Stage by stage, at coordinates: entry (0, s, 64 n + d) of
  its result is `Cert.Attn.refAttn` of query row `s` of head `n`, that head's keys, and column `64 n + d` of the values.
-/
import proofs.«121451_g44976897524301_cont_8to1_c_832_3_alg».proof.Proof.Gen.ReferenceIdeal.Read
import proofs.«121451_g44976897524301_cont_8to1_c_832_3_alg».proof.Proof.Spec
import proofs.«121451_g44976897524301_cont_8to1_c_832_3_alg».proof.Proof.Consts
import Idealize.ShloMosaic.Lib.ValueIdx
import Idealize.ShloMosaic.PureOps.Ideal.Laws

noncomputable section

namespace Cert.Attn.Ref

open Cert.ReferenceIdeal Cert.ReferenceIdeal.Facts₀ Cert.ReferenceIdeal.Read Idealize.ShloMosaic Idealize.ShloMosaic.ValueIdx Cert.Attn

/-- The reference's scale as it spells it: 1 divided by the square root of 64. -/
abbrev scaleR : EReal := Ideal.div (Ideal.ofBits .f32 0x3F800000#32) (Ideal.sqrt (Ideal.ofBits .f32 0x42800000#32))

variable (x0 x1 x2 : Arr)

/-! ## The split into heads: entry (0, n, s, e) of a split array is entry (0, s, 64 n + e) of the array -/

theorem heads_q (n : Fin 16) (s : Fin 2048) (e : Fin 64) :
    val_main_v1 (F := Ideal) x0 (ix4 (0 : Fin 1) n s e) = x0 (ix3 (0 : Fin 1) s (hcol n e)) := by
  rw [val_main_v1_apply, val_main_v0_apply]
  refine congrArg x0 (funext fun a => Fin.ext ?_)
  have := n.isLt; have := s.isLt; have := e.isLt
  match a with
  | ⟨0, _⟩ => rfl
  | ⟨1, _⟩ => show (((0 * 2048 + s.val) * 16 + n.val) * 64 + e.val) / 1024 % 2048 = s.val; omega
  | ⟨2, _⟩ => show (((0 * 2048 + s.val) * 16 + n.val) * 64 + e.val) % 1024 = 64 * n.val + e.val; omega

theorem heads_k (n : Fin 16) (s : Fin 2048) (e : Fin 64) :
    val_main_v3 (F := Ideal) x1 (ix4 (0 : Fin 1) n s e) = x1 (ix3 (0 : Fin 1) s (hcol n e)) := by
  rw [val_main_v3_apply, val_main_v2_apply]
  refine congrArg x1 (funext fun a => Fin.ext ?_)
  have := n.isLt; have := s.isLt; have := e.isLt
  match a with
  | ⟨0, _⟩ => rfl
  | ⟨1, _⟩ => show (((0 * 2048 + s.val) * 16 + n.val) * 64 + e.val) / 1024 % 2048 = s.val; omega
  | ⟨2, _⟩ => show (((0 * 2048 + s.val) * 16 + n.val) * 64 + e.val) % 1024 = 64 * n.val + e.val; omega

theorem heads_v (n : Fin 16) (s : Fin 2048) (e : Fin 64) :
    val_main_v5 (F := Ideal) x2 (ix4 (0 : Fin 1) n s e) = x2 (ix3 (0 : Fin 1) s (hcol n e)) := by
  rw [val_main_v5_apply, val_main_v4_apply]
  refine congrArg x2 (funext fun a => Fin.ext ?_)
  have := n.isLt; have := s.isLt; have := e.isLt
  match a with
  | ⟨0, _⟩ => rfl
  | ⟨1, _⟩ => show (((0 * 2048 + s.val) * 16 + n.val) * 64 + e.val) / 1024 % 2048 = s.val; omega
  | ⟨2, _⟩ => show (((0 * 2048 + s.val) * 16 + n.val) * 64 + e.val) % 1024 = 64 * n.val + e.val; omega

/-! ## The stages of the softmax, at coordinates -/

/-- The scale, laid over every score. -/
theorem scale_apply (j : S1x16x2048x2048.Idx) : val_main_v9 (F := Ideal) j = scaleR := by
  rw [val_main_v9_apply, val_main_v7_apply, val_main_v6_apply, val_main_cst_apply, val_main_cst_0_apply]
  rfl

/-- Score (n, s, t): the sum over the head's coordinates of query (s, ·) times key (t, ·), times the scale. -/
theorem scores_apply (n : Fin 16) (s t : Fin 2048) :
    val_main_v10 (F := Ideal) x0 x1 (ix4 (0 : Fin 1) n s t)
      = (∑ e : Fin 64, x0 (ix3 (0 : Fin 1) s (hcol n e)) * x1 (ix3 (0 : Fin 1) t (hcol n e))) * scaleR := by
  rw [val_main_v10_apply, val_main_v8_apply, scale_apply]
  refine congrArg (· * scaleR) (Finset.sum_congr rfl fun e _ => ?_)
  have hl : lidx_main_v8 (ix4 (0 : Fin 1) n s t) e = ix4 (0 : Fin 1) n s e :=
    funext fun a => by match a with | ⟨0, _⟩ => rfl | ⟨1, _⟩ => rfl | ⟨2, _⟩ => rfl | ⟨3, _⟩ => rfl
  have hr : ridx_main_v8 (ix4 (0 : Fin 1) n s t) e = ix4 (0 : Fin 1) n t e :=
    funext fun a => by match a with | ⟨0, _⟩ => rfl | ⟨1, _⟩ => rfl | ⟨2, _⟩ => rfl | ⟨3, _⟩ => rfl
  rw [hl, hr, heads_q, heads_k]

/-- A witness that the key axis can be reduced away, and what it inserts: key `k` as the last coordinate. -/
theorem reducesKeys : S1x16x2048x2048.Reduces [3] S1x16x2048 :=
  ⟨reducesTo_S1x16x2048x2048_S1x16x2048_d3.1, by decide, reducesTo_S1x16x2048x2048_S1x16x2048_d3.2⟩

theorem lift_keys (n : Fin 16) (s : Fin 2048) (k : Fin 2048) :
    reducesKeys.lift (ix3 (0 : Fin 1) n s) k = ix4 (0 : Fin 1) n s k :=
  funext fun b => Fin.ext (by match b with | ⟨0, _⟩ => rfl | ⟨1, _⟩ => rfl | ⟨2, _⟩ => rfl | ⟨3, _⟩ => rfl)

/-- The row maximum (n, s): the maximum, from −∞, of the row's scores, taken once more against −∞. -/
theorem rowmax_apply (n : Fin 16) (s : Fin 2048) :
    val_main_v13 (F := Ideal) x0 x1 (ix3 (0 : Fin 1) n s)
      = max ⊥ (Finset.univ.fold max ⊥ (fun t : Fin 2048 => val_main_v10 (F := Ideal) x0 x1 (ix4 (0 : Fin 1) n s t))) := by
  rw [val_main_v13_apply, val_main_v12_apply, val_main_cst_2_apply]
  show max (Ideal.ofBits .f32 0xFF800000#32) (val_main_v11 (F := Ideal) x0 x1 (ix3 (0 : Fin 1) n s)) = _
  rw [Consts.ofBits_neg_inf]
  refine congrArg (max ⊥) ?_
  unfold val_main_v11
  refine (Host.reduce_eq_fold_single (FloatOps.maximumf (F := Ideal) (φ := .f32)) (val_main_v10 (F := Ideal) x0 x1) (val_main_cst_1 (F := Ideal))
    reducesTo_S1x16x2048x2048_S1x16x2048_d3 reducesKeys h_S_ (ix3 (0 : Fin 1) n s)).trans ?_
  show Finset.univ.fold max (Ideal.ofBits .f32 0xFF800000#32) _ = _
  rw [Consts.ofBits_neg_inf]
  exact congrArg (Finset.univ.fold max ⊥) (funext fun k => congrArg (val_main_v10 (F := Ideal) x0 x1) (lift_keys n s k))

/-- Weight (n, s, t): the exponential of the score less the row maximum. -/
theorem weights_apply (n : Fin 16) (s t : Fin 2048) :
    val_main_v17 (F := Ideal) x0 x1 (ix4 (0 : Fin 1) n s t)
      = Ideal.exp (val_main_v10 (F := Ideal) x0 x1 (ix4 (0 : Fin 1) n s t) - val_main_v13 (F := Ideal) x0 x1 (ix3 (0 : Fin 1) n s)) := by
  rw [val_main_v17_apply, val_main_v16_apply, val_main_v15_apply, val_main_v14_apply]
  have h : idx_main_v14 (idx_main_v15 (ix4 (0 : Fin 1) n s t)) = ix3 (0 : Fin 1) n s :=
    funext fun a => by match a with | ⟨0, _⟩ => rfl | ⟨1, _⟩ => rfl | ⟨2, _⟩ => rfl
  rw [h]
  rfl

/-- Normaliser (n, s): 0 plus the sum of the row's weights. -/
theorem normaliser_apply (n : Fin 16) (s : Fin 2048) :
    val_main_v18 (F := Ideal) x0 x1 (ix3 (0 : Fin 1) n s)
      = 0 + ∑ t : Fin 2048, val_main_v17 (F := Ideal) x0 x1 (ix4 (0 : Fin 1) n s t) := by
  rw [val_main_v18_apply]
  show Ideal.ofBits .f32 0x00000000#32 + _ = _
  rw [Consts.ofBits_zero]
  refine congrArg (0 + ·) (Finset.sum_congr rfl fun t _ => congrArg (val_main_v17 (F := Ideal) x0 x1) ?_)
  exact funext fun a => by match a with | ⟨0, _⟩ => rfl | ⟨1, _⟩ => rfl | ⟨2, _⟩ => rfl | ⟨3, _⟩ => rfl

/-- Head output (n, s, d): the sum over the keys of the normalised weight times value (t, 64 n + d). -/
theorem out_apply (n : Fin 16) (s : Fin 2048) (d : Fin 64) :
    val_main_v22 (F := Ideal) x0 x1 x2 (ix4 (0 : Fin 1) n s d)
      = ∑ t : Fin 2048, Ideal.div (val_main_v17 (F := Ideal) x0 x1 (ix4 (0 : Fin 1) n s t))
          (val_main_v18 (F := Ideal) x0 x1 (ix3 (0 : Fin 1) n s)) * x2 (ix3 (0 : Fin 1) t (hcol n d)) := by
  rw [val_main_v22_apply]
  refine Finset.sum_congr rfl fun t _ => ?_
  have hl : lidx_main_v22 (ix4 (0 : Fin 1) n s d) t = ix4 (0 : Fin 1) n s t :=
    funext fun a => by match a with | ⟨0, _⟩ => rfl | ⟨1, _⟩ => rfl | ⟨2, _⟩ => rfl | ⟨3, _⟩ => rfl
  have hr : ridx_main_v22 (ix4 (0 : Fin 1) n s d) t = ix4 (0 : Fin 1) n t d :=
    funext fun a => by match a with | ⟨0, _⟩ => rfl | ⟨1, _⟩ => rfl | ⟨2, _⟩ => rfl | ⟨3, _⟩ => rfl
  have h : idx_main_v19 (idx_main_v20 (ix4 (0 : Fin 1) n s t)) = ix3 (0 : Fin 1) n s :=
    funext fun a => by match a with | ⟨0, _⟩ => rfl | ⟨1, _⟩ => rfl | ⟨2, _⟩ => rfl
  rw [hl, hr, val_main_v21_apply, val_main_v20_apply, val_main_v19_apply, h, heads_v]
  rfl

/-- Undoing the split: entry (0, s, 64 n + d) of the result is head output (n, s, d). -/
theorem result_apply (s : Fin 2048) (n : Fin 16) (d : Fin 64) :
    val_main_v24 (F := Ideal) x0 x1 x2 (ix3 (0 : Fin 1) s (hcol n d)) = val_main_v22 (F := Ideal) x0 x1 x2 (ix4 (0 : Fin 1) n s d) := by
  rw [val_main_v24_apply, val_main_v23_apply]
  refine congrArg (val_main_v22 (F := Ideal) x0 x1 x2) (funext fun a => Fin.ext ?_)
  have := n.isLt; have := s.isLt; have := d.isLt
  match a with
  | ⟨0, _⟩ => rfl
  | ⟨1, _⟩ => show ((0 * 2048 + s.val) * 1024 + (64 * n.val + d.val)) / 64 % 16 = n.val; omega
  | ⟨2, _⟩ => show ((0 * 2048 + s.val) * 1024 + (64 * n.val + d.val)) / 1024 % 2048 = s.val; omega
  | ⟨3, _⟩ => show ((0 * 2048 + s.val) * 1024 + (64 * n.val + d.val)) % 64 = d.val; omega

/-- **The reference at an index**, in its own arrangement. -/
theorem result_eq_refAttn (s : Fin 2048) (n : Fin 16) (d : Fin 64) :
    val_main_v24 (F := Ideal) x0 x1 x2 (ix3 (0 : Fin 1) s (hcol n d))
      = refAttn scaleR (fun e : Fin 64 => x0 (ix3 (0 : Fin 1) s (hcol n e)))
          (fun (t : Fin 2048) (e : Fin 64) => x1 (ix3 (0 : Fin 1) t (hcol n e)))
          (fun t : Fin 2048 => x2 (ix3 (0 : Fin 1) t (hcol n d))) := by
  rw [result_apply, out_apply]
  simp only [normaliser_apply, weights_apply, rowmax_apply, scores_apply]
  rfl

end Cert.Attn.Ref

end
-- ==== Proof.RefBridge.lean ====
/-
  The reference's result is the specification. At an index the reference computes `refAttn` with the scale 1/√64
  (`Cert.Attn.Ref.result_eq_refAttn`); the specification `G` is `rowAttn` with each query coordinate scaled by 0.125.
  Both scales are the real 1/8, and on real inputs the two arrangements agree (`Cert.Attn.refAttn_eq_rowAttn`): the
  scale moves across the sum over the head's coordinates, the division by the normaliser across the sum over the keys.
-/
import proofs.«121451_g44976897524301_cont_8to1_c_832_3_alg».proof.Proof.RefValue
import proofs.«121451_g44976897524301_cont_8to1_c_832_3_alg».proof.Proof.Spec
import proofs.«121451_g44976897524301_cont_8to1_c_832_3_alg».proof.Proof.Consts

noncomputable section

namespace Cert.Attn.Ref

open Cert.ReferenceIdeal Cert.ReferenceIdeal.Read Idealize.ShloMosaic Idealize.ShloMosaic.ValueIdx Cert.Attn

/-- The agreement of the two arrangements, each side with its scale as it spells it. -/
theorem refAttn_eq_rowAttn_scales {T E : Type} [Fintype T] [Fintype E] [Nonempty T] (cR cK : EReal) (c : ℝ)
    (hR : cR = (c : EReal)) (hK : cK = (c : EReal)) (q : E → ℝ) (K : T → E → ℝ) (v : T → ℝ) :
    refAttn cR (fun e => (q e : EReal)) (fun t e => (K t e : EReal)) (fun t => (v t : EReal))
      = rowAttn (fun e => (q e : EReal) * cK) (fun t e => (K t e : EReal)) (fun t => (v t : EReal)) := by
  subst hR hK
  exact refAttn_eq_rowAttn c q K v

/-- A column of head `n` belongs to head `n`. -/
theorem headOf_hcol (n : Fin 16) (d : Fin 64) : headOf (hcol n d) = n :=
  Fin.ext (by have := d.isLt; show (64 * n.val + d.val) / 64 = n.val; omega)

/-- At entry (0, s, 64 n + d), for real arrays. -/
theorem result_eq_G_at (q k v : (⟨3, ![1, 2048, 1024]⟩ : Shape).Idx → ℝ) (s : Fin 2048) (n : Fin 16) (d : Fin 64) :
    val_main_v24 (F := Ideal) (fun i => (q i : EReal)) (fun i => (k i : EReal)) (fun i => (v i : EReal)) (ix3 (0 : Fin 1) s (hcol n d))
      = G (fun i => (q i : EReal)) (fun i => (k i : EReal)) (fun i => (v i : EReal)) (ix3 (0 : Fin 1) s (hcol n d)) := by
  rw [result_eq_refAttn]
  show _ = rowAttn (fun e : Fin 64 => ((q (ix3 (0 : Fin 1) s (hcol (headOf (hcol n d)) e)) : ℝ) : EReal) * scaleK)
      (fun (t : Fin 2048) (e : Fin 64) => ((k (ix3 (0 : Fin 1) t (hcol (headOf (hcol n d)) e)) : ℝ) : EReal))
      (fun t : Fin 2048 => ((v (ix3 (0 : Fin 1) t (hcol n d)) : ℝ) : EReal))
  rw [headOf_hcol]
  exact refAttn_eq_rowAttn_scales scaleR scaleK (1 / 8) Consts.one_div_sqrt_64 Consts.ofBits_eighth
    (fun e => q (ix3 (0 : Fin 1) s (hcol n e))) (fun t e => k (ix3 (0 : Fin 1) t (hcol n e))) (fun t => v (ix3 (0 : Fin 1) t (hcol n d)))

/-- **The reference's result is `G` of its arguments**, when every entry of the arguments is a real. -/
theorem result_eq_G (x0 x1 x2 : Arr) (h0 : ∀ i, ∃ r : ℝ, x0 i = (r : EReal)) (h1 : ∀ i, ∃ r : ℝ, x1 i = (r : EReal))
    (h2 : ∀ i, ∃ r : ℝ, x2 i = (r : EReal)) : val_main_v24 (F := Ideal) x0 x1 x2 = G x0 x1 x2 := by
  choose q hq using h0
  choose k hk using h1
  choose v hv using h2
  obtain rfl : x0 = fun i => (q i : EReal) := funext hq
  obtain rfl : x1 = fun i => (k i : EReal) := funext hk
  obtain rfl : x2 = fun i => (v i : EReal) := funext hv
  funext i
  have hi0 : (i 0).val < 1 := (i 0).isLt
  obtain ⟨s, c, rfl⟩ : ∃ (s : Fin 2048) (c : Fin 1024), i = ix3 (0 : Fin 1) s c :=
    ⟨i 1, i 2, funext fun a => by
      match a with
      | ⟨0, _⟩ => exact Fin.ext (by show (i 0).val = 0; omega)
      | ⟨1, _⟩ => rfl
      | ⟨2, _⟩ => rfl⟩
  have h := result_eq_G_at q k v s (headOf c) (coordOf c)
  rwa [hcol_headOf_coordOf] at h

end Cert.Attn.Ref

end
-- ==== Proof.Finite.lean ====
/-
  From the precondition to real inputs. The precondition says that `|x| < +∞` holds of every entry of the three
  argument arrays (each `jnp.all` a conjunction over the array, the three joined by `and`). On the extended reals
  `|x| = max x (−x)` is `+∞` exactly at the two infinities, so every entry is a real number.
-/
import proofs.«121451_g44976897524301_cont_8to1_c_832_3_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Attn.Finite

open Cert.Pre_finite_inputs Cert.Pre_finite_inputs.Facts Idealize.ShloMosaic Idealize.ShloMosaic.ValueIdx

variable [Cert.Pre_finite_inputs.Facts]

/-- The scalar shape has one index. -/
instance : Subsingleton S_.Idx := ⟨fun a b => funext fun d => d.elim0⟩

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exact absurd h (by simp [Ideal.cmp])
  | coe r => exact ⟨r, rfl⟩
  | top => exact absurd h (by simp [Ideal.cmp])

/-- One `jnp.all(|a| < inf)` holding says every entry of `a` is a real. -/
theorem all_real (a : FVec Ideal S1x2048x1024 .f32)
    (h : Host.reduce IntOp.andi
        (cmpf .olt (Host.absf a) (broadcastInDim S1x2048x1024 ![] bcast_S_S1x2048x1024 (constant (F := Ideal) S_ .f32 0x7F800000#32)))
        (constantI S_ 1 1#1) reducesTo_S1x2048x1024_S_d0_1_2 h_S_ ix0 = 1#1)
    (i : S1x2048x1024.Idx) : ∃ r : ℝ, a i = (r : EReal) :=
  real_of_abs_lt_inf (a i) (Host.reduce_andi_all _ _ reducesTo_S1x2048x1024_S_d0_1_2 h_S_ ix0 h i)

/-- **The precondition makes every entry of the three arrays a real.** -/
theorem real_of_pre (a0 a1 a2 : FVec Ideal S1x2048x1024 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 : IntOp.andi (IntOp.andi _ _) _ = 1#1 := congrFun h ix0
  obtain ⟨h01, h2⟩ := IntOp.andi_eq_one.1 h0
  obtain ⟨h0', h1⟩ := IntOp.andi_eq_one.1 h01
  exact ⟨all_real a0 h0', all_real a1 h1, all_real a2 h2⟩

end Cert.Attn.Finite

end
-- ==== Proof.lean ====
/-
  Fused multi-head self-attention over q, k, v : f32[1, 2048, 1024] — 16 heads of 64 coordinates — against its jnp
  reference, as extended reals.

  The kernel runs over 8 grid points, one per pair of heads: a point stages the [1, 2048, 128] block of each array
  holding its two heads and, per head and per chunk of 256 query rows, computes the scores (queries scaled by 0.125,
  times the keys), subtracts each row's maximum, exponentiates, and divides the weighted sum of the values by the sum
  of the weights ONCE. The reference splits the model axis into heads, scales the finished scores by 1/√64, takes
  `softmax` (each weight divided by the sum of its row's weights) and then sums against the values.

  Both are the function `Cert.Attn.G` of the arguments, index by index:
  * the kernel's output array after its run is `G` of the arguments (`Cert.Attn.KernelValue.run`): a chunk's entry is a
    row attention, the chunks stack into heads and the heads sit side by side in a block, and the 8 blocks tile the
    output;
  * the reference's result is `G` of the arguments when every entry is a real (`Cert.Attn.Ref.result_eq_G`), which the
    precondition gives (`Cert.Attn.Finite.real_of_pre`): 1/√64 = 1/8 = 0.125 since 64 = 8², the scale moves across the sum
    over a head's coordinates, and the division by the normaliser — a positive real, a sum of exponentials — moves
    across the sum over the keys. Both moves are distributivity, which is where finiteness is used.

  The three frames are the generated ones (the reference's is its run with the result dropped); the idealization
  rewrote nothing, so `preserves` is trivial.
-/
import proofs.«121451_g44976897524301_cont_8to1_c_832_3_alg».proof.Defs
import proofs.«121451_g44976897524301_cont_8to1_c_832_3_alg».proof.Proof.Gen.Kernel
import proofs.«121451_g44976897524301_cont_8to1_c_832_3_alg».proof.Proof.Gen.Kernel.Skeleton
import proofs.«121451_g44976897524301_cont_8to1_c_832_3_alg».proof.Proof.Gen.Kernel.Launch
import proofs.«121451_g44976897524301_cont_8to1_c_832_3_alg».proof.Proof.Gen.Kernel.Points
import proofs.«121451_g44976897524301_cont_8to1_c_832_3_alg».proof.Proof.Gen.Kernel.Frame
import proofs.«121451_g44976897524301_cont_8to1_c_832_3_alg».proof.Proof.Gen.KernelIdeal
import proofs.«121451_g44976897524301_cont_8to1_c_832_3_alg».proof.Proof.Gen.KernelIdeal.Skeleton
import proofs.«121451_g44976897524301_cont_8to1_c_832_3_alg».proof.Proof.Gen.KernelIdeal.Launch
import proofs.«121451_g44976897524301_cont_8to1_c_832_3_alg».proof.Proof.Gen.KernelIdeal.Points
import proofs.«121451_g44976897524301_cont_8to1_c_832_3_alg».proof.Proof.Gen.KernelIdeal.Frame
import proofs.«121451_g44976897524301_cont_8to1_c_832_3_alg».proof.Proof.Gen.ReferenceIdeal
import proofs.«121451_g44976897524301_cont_8to1_c_832_3_alg».proof.Proof.Gen.Pre_finite_inputs
import proofs.«121451_g44976897524301_cont_8to1_c_832_3_alg».proof.Proof.Gen.KernelIdeal.Value
import proofs.«121451_g44976897524301_cont_8to1_c_832_3_alg».proof.Proof.Gen.ReferenceIdeal.Run
import proofs.«121451_g44976897524301_cont_8to1_c_832_3_alg».proof.Proof.Gen.ReferenceIdeal.Read
import proofs.«121451_g44976897524301_cont_8to1_c_832_3_alg».proof.Proof.KernelValue
import proofs.«121451_g44976897524301_cont_8to1_c_832_3_alg».proof.Proof.RefBridge
import proofs.«121451_g44976897524301_cont_8to1_c_832_3_alg».proof.Proof.Finite
import Idealize.ShloMosaic.Adequacy
import Idealize.ShloMosaic.Init

noncomputable section

namespace Cert.Proof

open Idealize.ShloMosaic Idealize.SL.Sem Idealize.ShloMosaic.TcCoe

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both programs end with the output at `G` of the arguments: the kernel's run
    read block by block, the reference's run read stage by stage and, the entries being reals under the precondition,
    rearranged into the kernel's form. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨r0, r1, r2⟩ := Cert.Attn.Finite.real_of_pre _ _ _ (hpre c)
  exact (Cert.ReferenceIdeal.Read.val_main_v24_eq _ _ _).trans (Cert.Attn.Ref.result_eq_G _ _ _ r0 r1 r2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
